-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S800000x129 : Shape := ⟨2, ![800000, 129]⟩
abbrev S50000x129 : Shape := ⟨2, ![50000, 129]⟩
abbrev S50000x1 : Shape := ⟨2, ![50000, 1]⟩
abbrev S5000x128 : Shape := ⟨2, ![5000, 128]⟩
abbrev S5000x1 : Shape := ⟨2, ![5000, 1]⟩
abbrev S1x128 : Shape := ⟨2, ![1, 128]⟩

abbrev nBuf : Space → Nat
  | .hbm => 43
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .f32⟩
  | .hbm, ⟨17, _⟩ => ⟨S800000x1, .f32⟩
  | .hbm, ⟨18, _⟩ => ⟨S800000x129, .f32⟩
  | .hbm, ⟨19, _⟩ => ⟨S_, .f32⟩
  | .hbm, ⟨20, _⟩ => ⟨S50000x129, .f32⟩
  | .hbm, ⟨21, _⟩ => ⟨S800000x1, .i32⟩
  | .hbm, ⟨22, _⟩ => ⟨S50000x129, .f32⟩
  | .hbm, ⟨23, _⟩ => ⟨S50000x128, .f32⟩
  | .hbm, ⟨24, _⟩ => ⟨S50000x1, .f32⟩
  | .hbm, ⟨25, _⟩ => ⟨S_, .f32⟩
  | .hbm, ⟨26, _⟩ => ⟨S50000x1, .f32⟩
  | .hbm, ⟨27, _⟩ => ⟨S50000x1, .i1⟩
  | .hbm, ⟨28, _⟩ => ⟨S_, .f32⟩
  | .hbm, ⟨29, _⟩ => ⟨S50000x1, .f32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S_, .f32⟩
  | .hbm, ⟨35, _⟩ => ⟨S_, .f32⟩
  | .hbm, ⟨36, _⟩ => ⟨S50000x1, .f32⟩
  | .hbm, ⟨37, _⟩ => ⟨S50000x1, .f32⟩
  | .hbm, ⟨38, _⟩ => ⟨S128x128, .f32⟩
  | .hbm, ⟨39, _⟩ => ⟨S128x128, .bf16⟩
  | .hbm, ⟨40, _⟩ => ⟨S128x128, .f32⟩
  | .hbm, ⟨41, _⟩ => ⟨S128x128, .bf16⟩
  | .hbm, ⟨42, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .bf16⟩
  | .local _ .vmem, ⟨7, _⟩ => ⟨S128, .f32⟩
  | .local _ .vmem, ⟨8, _⟩ => ⟨S128x128, .bf16⟩
  | .local _ .vmem, ⟨9, _⟩ => ⟨S128, .f32⟩
  | .local _ .vmem, ⟨10, _⟩ => ⟨S5000x128, .f32⟩
  | .local _ .vmem, ⟨11, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  concatenates_S800000x128_S800000x1_S800000x129_d1 : Shape.Concatenates [S800000x128, S800000x1] S800000x129 1
  bcast_S_S50000x129 : S_.BroadcastsInDim S50000x129 (![] : Fin 0 → Fin S50000x129.rank)
  slices_S50000x129_S50000x128_0_0 : S50000x129.Slices ![0, 0] S50000x128
  slices_S50000x129_S50000x1_0_128 : S50000x129.Slices ![0, 128] S50000x1
  bcast_S_S50000x1 : S_.BroadcastsInDim S50000x1 (![] : Fin 0 → Fin S50000x1.rank)
  transposes_S128x128_S128x128_1_0 : S128x128.Transposes [1, 0] S128x128
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x129_S800000x1_S800000x129_1_0_0_1_wf : ScatterDims.WF S50000x129 S800000x1 S800000x129 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x129_S800000x1_S800000x129_1_0_0_1 : ScatterDims S50000x129 S800000x1 S800000x129 where
  updateWindowDims := [1]
  insertedWindowDims := [0]
  scatterDimsToOperandDims := [0]
  indexVectorDim := 1
  wf := scatter_S50000x129_S800000x1_S800000x129_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 52
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .f32⟩
  | .hbm, ⟨17, _⟩ => ⟨S50000x128, .f32⟩
  | .hbm, ⟨18, _⟩ => ⟨S800000x1, .i32⟩
  | .hbm, ⟨19, _⟩ => ⟨S50000x128, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S50000x1, .f32⟩
  | .hbm, ⟨27, _⟩ => ⟨S_, .f32⟩
  | .hbm, ⟨28, _⟩ => ⟨S50000x1, .f32⟩
  | .hbm, ⟨29, _⟩ => ⟨S50000x1, .i1⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S_, .f32⟩
  | .hbm, ⟨38, _⟩ => ⟨S50000x128, .i1⟩
  | .hbm, ⟨39, _⟩ => ⟨S50000x128, .f32⟩
  | .hbm, ⟨40, _⟩ => ⟨S50000x128, .f32⟩
  | .hbm, ⟨41, _⟩ => ⟨S128x128, .f32⟩
  | .hbm, ⟨42, _⟩ => ⟨S50000x128, .f32⟩
  | .hbm, ⟨43, _⟩ => ⟨S128x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.GraphMean.lean ====
/-
  A mean-aggregating graph layer as one function of its arguments, on the extended reals.

  There are `N` nodes with `C` features each and `E` edges; edge `e` carries a message row `M e` (the features of its
  source node) to the node whose number is `dst e` (a signed integer; an edge whose `dst` is not a node number is
  dropped). For node `n`:
    * `deg n`   = the number of edges into `n`, spelt as a sum of ones;
    * `nsum n k` = the sum over the edges into `n` of the messages' feature `k`;
    * `mean n k` = `nsum n k / max (deg n) 1` when `deg n > 0`, and `0` otherwise.
  The layer's output is `(feat · Wsᵀ + bs) + mean · Wnᵀ + bias`.

  One may also scale first and mask the scale: `invDeg n = 1 / max (deg n) 1` when `deg n > 0`, else `0`, and use
  `nsum n k * invDeg n` in place of `mean n k`. The two agree on every extended real `nsum n k`, because `deg n` is a
  natural number: `max (deg n) 1` is then a nonzero REAL `d`, dividing by it is multiplying by the real `1/d`, and
  `x * 0 = 0` for every extended real `x`. No finiteness of the features is needed.
-/
import Idealize.ShloMosaic.PureOps.Ideal
import Idealize.ShloMosaic.PureOps.Ideal.Laws
import Idealize.ShloMosaic.Lib.IdealHost
import Idealize.ShloMosaic.Lib.ValueIdx

noncomputable section

open scoped BigOperators

namespace Cert.GraphMean

open Idealize.ShloMosaic Idealize.ShloMosaic.ValueIdx

/-! ## Real sums -/

/-- A finite sum of extended reals each of which is a real number is a real number. -/
theorem exists_real_sum {ι : Type*} (s : Finset ι) (f : ι → EReal) (h : ∀ i ∈ s, ∃ r : ℝ, f i = (r : EReal)) :
    ∃ r : ℝ, ∑ i ∈ s, f i = (r : EReal) := by
  classical
  revert h
  refine Finset.induction_on s (fun _ => ⟨0, by simp⟩) ?_
  intro a s ha ih h
  obtain ⟨ra, hra⟩ := h a (Finset.mem_insert_self a s)
  obtain ⟨rs, hrs⟩ := ih (fun i hi => h i (Finset.mem_insert_of_mem hi))
  exact ⟨ra + rs, by rw [Finset.sum_insert ha, hra, hrs, EReal.coe_add]⟩

/-- Zero plus a sum of ones and zeros is a real number (a count). -/
theorem count_real {ι : Type*} [Fintype ι] (p : ι → Prop) [DecidablePred p] :
    ∃ r : ℝ, Ideal.ofBits .f32 0x00000000#32
      + ∑ e : ι, (if p e then Ideal.ofBits .f32 0x3F800000#32 else 0) = (r : EReal) := by
  obtain ⟨r, hr⟩ := exists_real_sum Finset.univ (fun e => if p e then Ideal.ofBits .f32 0x3F800000#32 else 0)
    (fun e _ => by
      by_cases h : p e
      · exact ⟨1, by rw [if_pos h, Ideal.ofBits_one_f32]; rfl⟩
      · exact ⟨0, by rw [if_neg h]; rfl⟩)
  exact ⟨r, by rw [hr, Ideal.ofBits_zero_f32, zero_add]⟩

/-! ## The law -/

/-- SCALING BY THE MASKED RECIPROCAL IS THE MASKED QUOTIENT, for a real count `d` and any extended real `x`. -/
theorem mul_masked_inv (x d : EReal) (hd : ∃ r : ℝ, d = (r : EReal)) :
    x * Scalar.select (Ideal.cmp .ogt d (Ideal.ofBits .f32 0x00000000#32))
          (Ideal.div (Ideal.ofBits .f32 0x3F800000#32) (max d (Ideal.ofBits .f32 0x3F800000#32)))
          (Ideal.ofBits .f32 0x00000000#32)
      = Scalar.select (Ideal.cmp .ogt d (Ideal.ofBits .f32 0x00000000#32))
          (Ideal.div x (max d (Ideal.ofBits .f32 0x3F800000#32)))
          (Ideal.ofBits .f32 0x00000000#32) := by
  obtain ⟨r, rfl⟩ := hd
  rw [Ideal.ofBits_zero_f32, Ideal.ofBits_one_f32]
  have hmax : max ((r : ℝ) : EReal) 1 = ((max r 1 : ℝ) : EReal) :=
    (EReal.coe_strictMono.monotone.map_max (a := r) (b := 1)).symm
  have hne : (max r 1 : ℝ) ≠ 0 := by
    have := le_max_right r 1
    intro h0; rw [h0] at this; linarith
  rw [hmax, Ideal.div_coe hne, Ideal.div_coe hne, one_mul]
  unfold Scalar.select
  split
  · rfl
  · exact mul_zero x

/-! ## The layer -/

variable {N E C D w : Nat}

/-- The number of edges into node `n`, as zero plus a sum of ones. -/
def deg (dst : IVec ⟨1, ![E]⟩ w) (n : Fin N) : EReal :=
  Ideal.ofBits .f32 0x00000000#32
    + ∑ e : Fin E, if (dst (ix1 e)).toInt = (n.val : Int) then Ideal.ofBits .f32 0x3F800000#32 else 0

/-- The sum of the messages into node `n`, feature `k`. -/
def nsum (M : (⟨2, ![E, C]⟩ : Shape).Idx → EReal) (dst : IVec ⟨1, ![E]⟩ w) (n : Fin N) (k : Fin C) : EReal :=
  Ideal.ofBits .f32 0x00000000#32 + ∑ e : Fin E, if (dst (ix1 e)).toInt = (n.val : Int) then M (ix2 e k) else 0

/-- The masked reciprocal of the clamped count. -/
def invDeg (dst : IVec ⟨1, ![E]⟩ w) (n : Fin N) : EReal :=
  Scalar.select (Ideal.cmp .ogt (deg dst n) (Ideal.ofBits .f32 0x00000000#32))
    (Ideal.div (Ideal.ofBits .f32 0x3F800000#32) (max (deg dst n) (Ideal.ofBits .f32 0x3F800000#32)))
    (Ideal.ofBits .f32 0x00000000#32)

/-- The mean of the messages into node `n`, feature `k`; zero for a node with no edge. -/
def mean (M : (⟨2, ![E, C]⟩ : Shape).Idx → EReal) (dst : IVec ⟨1, ![E]⟩ w) (n : Fin N) (k : Fin C) : EReal :=
  Scalar.select (Ideal.cmp .ogt (deg dst n) (Ideal.ofBits .f32 0x00000000#32))
    (Ideal.div (nsum M dst n k) (max (deg dst n) (Ideal.ofBits .f32 0x3F800000#32)))
    (Ideal.ofBits .f32 0x00000000#32)

/-- The count is a real number. -/
theorem deg_real (dst : IVec ⟨1, ![E]⟩ w) (n : Fin N) : ∃ r : ℝ, deg dst n = (r : EReal) :=
  count_real (fun e : Fin E => (dst (ix1 e)).toInt = (n.val : Int))

/-- Scale-then-mask is the masked mean. -/
theorem nsum_mul_invDeg (M : (⟨2, ![E, C]⟩ : Shape).Idx → EReal) (dst : IVec ⟨1, ![E]⟩ w) (n : Fin N) (k : Fin C) :
    nsum M dst n k * invDeg dst n = mean M dst n k :=
  mul_masked_inv _ _ (deg_real dst n)

/-- The layer's entry `(n, j)`. -/
def layerAt (feat : (⟨2, ![N, C]⟩ : Shape).Idx → EReal) (M : (⟨2, ![E, C]⟩ : Shape).Idx → EReal) (dst : IVec ⟨1, ![E]⟩ w)
    (Ws : (⟨2, ![D, C]⟩ : Shape).Idx → EReal) (bs : (⟨1, ![D]⟩ : Shape).Idx → EReal)
    (Wn : (⟨2, ![D, C]⟩ : Shape).Idx → EReal) (bias : (⟨1, ![D]⟩ : Shape).Idx → EReal) (n : Fin N) (j : Fin D) : EReal :=
  ((∑ k : Fin C, feat (ix2 n k) * Ws (ix2 j k)) + bs (ix1 j) + ∑ k : Fin C, mean M dst n k * Wn (ix2 j k)) + bias (ix1 j)

/-- THE LAYER as one function of its arguments. -/
def layer (feat : (⟨2, ![N, C]⟩ : Shape).Idx → EReal) (M : (⟨2, ![E, C]⟩ : Shape).Idx → EReal) (dst : IVec ⟨1, ![E]⟩ w)
    (Ws : (⟨2, ![D, C]⟩ : Shape).Idx → EReal) (bs : (⟨1, ![D]⟩ : Shape).Idx → EReal)
    (Wn : (⟨2, ![D, C]⟩ : Shape).Idx → EReal) (bias : (⟨1, ![D]⟩ : Shape).Idx → EReal) :
    (⟨2, ![N, D]⟩ : Shape).Idx → EReal :=
  fun i => layerAt feat M dst Ws bs Wn bias (i 0) (i 1)

theorem layer_apply (feat : (⟨2, ![N, C]⟩ : Shape).Idx → EReal) (M : (⟨2, ![E, C]⟩ : Shape).Idx → EReal) (dst : IVec ⟨1, ![E]⟩ w)
    (Ws : (⟨2, ![D, C]⟩ : Shape).Idx → EReal) (bs : (⟨1, ![D]⟩ : Shape).Idx → EReal)
    (Wn : (⟨2, ![D, C]⟩ : Shape).Idx → EReal) (bias : (⟨1, ![D]⟩ : Shape).Idx → EReal) (n : Fin N) (j : Fin D) :
    layer feat M dst Ws bs Wn bias (ix2 n j) = layerAt feat M dst Ws bs Wn bias n j := rfl

/-! ## The same layer with the weights laid out transposed and the scale applied before the product -/

/-- Entry `(n, j)` from: the features `A0`, the per-node sums `A1`, the per-node scale as a column `A2`, the two
    weight matrices laid out `[C, D]` (`A3`, `A5`) and the two bias rows (`A4`, `A6`). -/
def layerKAt (A0 A1 : (⟨2, ![N, C]⟩ : Shape).Idx → EReal) (A2 : (⟨2, ![N, 1]⟩ : Shape).Idx → EReal)
    (A3 : (⟨2, ![C, D]⟩ : Shape).Idx → EReal) (A4 : (⟨1, ![D]⟩ : Shape).Idx → EReal)
    (A5 : (⟨2, ![C, D]⟩ : Shape).Idx → EReal) (A6 : (⟨1, ![D]⟩ : Shape).Idx → EReal) (n : Fin N) (j : Fin D) : EReal :=
  ((∑ k : Fin C, A0 (ix2 n k) * A3 (ix2 k j)) + A4 (ix1 j)
    + ∑ k : Fin C, (A1 (ix2 n k) * A2 (ix2 n (0 : Fin 1))) * A5 (ix2 k j)) + A6 (ix1 j)

def layerK (A0 A1 : (⟨2, ![N, C]⟩ : Shape).Idx → EReal) (A2 : (⟨2, ![N, 1]⟩ : Shape).Idx → EReal)
    (A3 : (⟨2, ![C, D]⟩ : Shape).Idx → EReal) (A4 : (⟨1, ![D]⟩ : Shape).Idx → EReal)
    (A5 : (⟨2, ![C, D]⟩ : Shape).Idx → EReal) (A6 : (⟨1, ![D]⟩ : Shape).Idx → EReal) :
    (⟨2, ![N, D]⟩ : Shape).Idx → EReal :=
  fun i => layerKAt A0 A1 A2 A3 A4 A5 A6 (i 0) (i 1)

/-- Entry `(p, j)` of the form above computed from BLOCKS is entry `(n, j)` computed from the whole arrays, when row `p` of
    each row block is row `n` of its array and the weight and bias blocks agree with their arrays on column `j`. -/
theorem layerKAt_block {N' : Nat} (A0 A1 : (⟨2, ![N, C]⟩ : Shape).Idx → EReal) (A2 : (⟨2, ![N, 1]⟩ : Shape).Idx → EReal)
    (A3 : (⟨2, ![C, D]⟩ : Shape).Idx → EReal) (A4 : (⟨1, ![D]⟩ : Shape).Idx → EReal)
    (A5 : (⟨2, ![C, D]⟩ : Shape).Idx → EReal) (A6 : (⟨1, ![D]⟩ : Shape).Idx → EReal)
    (B0 B1 : (⟨2, ![N', C]⟩ : Shape).Idx → EReal) (B2 : (⟨2, ![N', 1]⟩ : Shape).Idx → EReal)
    (B3 : (⟨2, ![C, D]⟩ : Shape).Idx → EReal) (B4 : (⟨1, ![D]⟩ : Shape).Idx → EReal)
    (B5 : (⟨2, ![C, D]⟩ : Shape).Idx → EReal) (B6 : (⟨1, ![D]⟩ : Shape).Idx → EReal) (p : Fin N') (n : Fin N) (j : Fin D)
    (h0 : ∀ k : Fin C, B0 (ix2 p k) = A0 (ix2 n k)) (h1 : ∀ k : Fin C, B1 (ix2 p k) = A1 (ix2 n k))
    (h2 : B2 (ix2 p (0 : Fin 1)) = A2 (ix2 n (0 : Fin 1)))
    (h3 : ∀ k : Fin C, B3 (ix2 k j) = A3 (ix2 k j)) (h4 : B4 (ix1 j) = A4 (ix1 j))
    (h5 : ∀ k : Fin C, B5 (ix2 k j) = A5 (ix2 k j)) (h6 : B6 (ix1 j) = A6 (ix1 j)) :
    layerKAt B0 B1 B2 B3 B4 B5 B6 p j = layerKAt A0 A1 A2 A3 A4 A5 A6 n j := by
  unfold layerKAt
  simp only [h0, h1, h2, h3, h4, h5, h6]

/-- THE TWO SPELLINGS AGREE: with the sums, the scale and the transposed weights read off their arrays entry by entry,
    the scale-first form is the layer. -/
theorem layerK_eq_layer (feat : (⟨2, ![N, C]⟩ : Shape).Idx → EReal) (M : (⟨2, ![E, C]⟩ : Shape).Idx → EReal)
    (dst : IVec ⟨1, ![E]⟩ w) (Ws : (⟨2, ![D, C]⟩ : Shape).Idx → EReal) (bs : (⟨1, ![D]⟩ : Shape).Idx → EReal)
    (Wn : (⟨2, ![D, C]⟩ : Shape).Idx → EReal) (bias : (⟨1, ![D]⟩ : Shape).Idx → EReal)
    (A1 : (⟨2, ![N, C]⟩ : Shape).Idx → EReal) (A2 : (⟨2, ![N, 1]⟩ : Shape).Idx → EReal)
    (A3 A5 : (⟨2, ![C, D]⟩ : Shape).Idx → EReal)
    (h1 : ∀ (n : Fin N) (k : Fin C), A1 (ix2 n k) = nsum M dst n k)
    (h2 : ∀ n : Fin N, A2 (ix2 n (0 : Fin 1)) = invDeg dst n)
    (h3 : ∀ (k : Fin C) (j : Fin D), A3 (ix2 k j) = Ws (ix2 j k))
    (h5 : ∀ (k : Fin C) (j : Fin D), A5 (ix2 k j) = Wn (ix2 j k)) :
    layerK feat A1 A2 A3 bs A5 bias = layer feat M dst Ws bs Wn bias := by
  funext i
  obtain ⟨n, j, rfl⟩ : ∃ (n : Fin N) (j : Fin D), i = ix2 n j := ⟨i 0, i 1, eq_ix2 i⟩
  show layerKAt feat A1 A2 A3 bs A5 bias n j = layerAt feat M dst Ws bs Wn bias n j
  unfold layerKAt layerAt
  simp only [h1, h2, h3, h5, nsum_mul_invDeg]

end Cert.GraphMean

end
-- ==== Proof.KernelBody.lean ====
/-
  The kernel body's stored value, read at an entry.

  At a grid point the body holds a block of 5000 rows of the features `x0`, of the per-node sums `x1` and of the
  per-node scale `x2` (one column), the two weight tiles `x3`, `x5` laid out [in, out], and the two bias rows
  `x4`, `x6`. It stores, at row `p` and column `q`,
      ((∑ₖ x0[p,k]·x3[k,q] + x4[q]) + ∑ₖ (x1[p,k]·x2[p,0])·x5[k,q]) + x6[q] :
  on the extended reals the two roundings to bf16 are the identity, a matrix product into a zero accumulator is the plain
  sum of products, the scale column is spread across the 128 columns, and each bias row down the 5000 rows.
-/
import proofs.«136518_j75591424410316_2_alg».proof.Proof.Gen.KernelIdeal.Skeleton
import proofs.«136518_j75591424410316_2_alg».proof.Proof.LibMatProd
import proofs.«136518_j75591424410316_2_alg».proof.Proof.LibBroadcastTo
import proofs.«136518_j75591424410316_2_alg».proof.Proof.GraphMean
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- A block of rows times a weight tile, into a zero accumulator: entry `(p, q)` is `∑ₖ l[p,k]·r[k,q]`. -/
theorem tile_product (l : FVec Ideal S5000x128 .bf16) (r : FVec Ideal S128x128 .bf16) (p : Fin 5000) (q : Fin 128) :
    matmul dot_S5000x128_S128x128_S5000x128_1_0_0_1_n_n none l (shapeCast S128x128 r shapeCasts_S128x128_S128x128)
        (constant S5000x128 .f32 0x00000000#32) (ix2 p q)
      = ∑ k : Fin 128, l (ix2 p k) * r (ix2 k q) := by
  rw [shapeCast_self]
  exact Cert.MatProd.matmul_plain_zero_apply (M := 5000) (K := 128) (N := 128) none l r p q

/-- A bias row spread down the rows: entry `(p, q)` is the row's entry `q`. -/
theorem bias_row (b : FVec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply (shapeCast S1x128 b shapeCasts_S128_S1x128) broadcasts_S1x128_S5000x128 p q).trans
    (shapeCast_a_1a_apply b shapeCasts_S128_S1x128 0 q)

/-- The sums scaled row by row: entry `(p, k)` is `x1[p,k]·x2[p,0]`. -/
theorem scaled_rows (x1 : FVec Ideal S5000x128 .f32) (x2 : FVec Ideal S5000x1 .f32) (p : Fin 5000) (k : Fin 128) :
    mulf (shapeCast S5000x128 x1 shapeCasts_S5000x128_S5000x128)
        (broadcastTo S5000x128 (shapeCast S5000x1 x2 shapeCasts_S5000x1_S5000x1) broadcasts_S5000x1_S5000x128)
      (ix2 p k) = x1 (ix2 p k) * x2 (ix2 p (0 : Fin 1)) := by
  rw [shapeCast_self, shapeCast_self]
  exact congrArg (x1 (ix2 p k) * ·) (Cert.BroadcastTo.col_apply x2 broadcasts_S5000x1_S5000x128 p k)

/-- THE STORED VALUE at `(p, q)`. -/
theorem pay_apply (x0 x1 : FVec Ideal S5000x128 .f32) (x2 : FVec Ideal S5000x1 .f32) (x3 x5 : FVec Ideal S128x128 .bf16)
    (x4 x6 : FVec Ideal S128 .f32) (p : Fin 5000) (q : Fin 128) :
    k0_pay1 (F := Ideal) x0 x1 x2 x3 x5 x4 x6 (ix2 p q) = Cert.GraphMean.layerKAt x0 x1 x2 x3 x4 x5 x6 p q := by
  unfold k0_pay1 Cert.GraphMean.layerKAt
  simp only [addf_apply, tile_product, bias_row, scaled_rows, truncf_apply]

end Cert.KernelIdeal.Body

end
-- ==== Proof.KernelArray.lean ====
/-
  The kernel's result array as one function of the arrays its windows read.

  The grid has ten points; point `t` works on rows `5000·t … 5000·t + 4999`: the three row windows (features, sums, scale
  column) and the output window are at block `(t, 0)`, and the two weight tiles and two bias rows are whole arrays, at
  block `0`. So row `p` of a row block is row `5000·t + p` of its array, the value the body stores at `(p, q)` is the
  scale-first layer's entry `(5000·t + p, q)` of the whole arrays, and, the ten blocks covering the 50000 rows, the
  result array ends holding that function everywhere. The block reads are stated for ARBITRARY arrays: what the
  arrays hold plays no part here.
-/
import proofs.«136518_j75591424410316_2_alg».proof.Proof.Gen.KernelIdeal.Value
import proofs.«136518_j75591424410316_2_alg».proof.Proof.KernelBody
import proofs.«136518_j75591424410316_2_alg».proof.Proof.GraphMean

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

theorem zero_offsets2 : (![0, 0] : Fin 2 → Nat) = fun _ => 0 := funext fun a => by fin_cases a <;> rfl
theorem zero_offsets1 : (![0] : Fin 1 → Nat) = fun _ => 0 := funext fun a => by fin_cases a <;> rfl

/-- Where each window's block is at point `t`, decided over the ten points: the row windows and the output at block
    `(t, 0)`, the weights and biases at block `0`. -/
theorem block_places : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

theorem point_lt (t : Fin cfg0.N) : t.val < 10 := lt_of_lt_of_eq t.isLt N_0

/-- The array row that row `p` of point `t`'s blocks is. -/
def rowOf (t : Fin cfg0.N) (p : Fin 5000) : Fin 50000 :=
  ⟨t.val * 5000 + p.val, by have := point_lt t; have := p.isLt; omega⟩

/-! ## A window's block of an array, read at an entry -/

theorem read_feat (A : S50000x128.Idx → EReal) (t : Fin cfg0.N) (p : Fin 5000) (k : Fin 128) :
    ((cfg0.win 0).blk t).view.read (Elt Ideal) A (ix2 p k) = A (ix2 (rowOf t p) k) := by
  obtain ⟨e0, e1, -⟩ := block_places t
  show A (((cfg0.win 0).blk t).view.emb (ix2 p k)) = _
  refine congrArg A (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

theorem read_sums (A : S50000x128.Idx → EReal) (t : Fin cfg0.N) (p : Fin 5000) (k : Fin 128) :
    ((cfg0.win 1).blk t).view.read (Elt Ideal) A (ix2 p k) = A (ix2 (rowOf t p) k) := by
  obtain ⟨-, -, e0, e1, -⟩ := block_places t
  show A (((cfg0.win 1).blk t).view.emb (ix2 p k)) = _
  refine congrArg A (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 128 + 1 * k.val = k.val; rw [e1]; omega

theorem read_scale (A : S50000x1.Idx → EReal) (t : Fin cfg0.N) (p : Fin 5000) :
    ((cfg0.win 2).blk t).view.read (Elt Ideal) A (ix2 p (0 : Fin 1)) = A (ix2 (rowOf t p) (0 : Fin 1)) := by
  obtain ⟨-, -, -, -, e0, e1, -⟩ := block_places t
  show A (((cfg0.win 2).blk t).view.emb (ix2 p (0 : Fin 1))) = _
  refine congrArg A (funext fun a => Fin.ext ?_)
  match a with
  | ⟨0, _⟩ => show win0_2.index t (0 : Fin 2) * 5000 + 1 * p.val = t.val * 5000 + p.val; rw [e0]; omega
  | ⟨1, _⟩ => show win0_2.index t (1 : Fin 2) * 1 + 1 * 0 = 0; rw [e1]

theorem read_wself (A : S128x128.Idx → EReal) (t : Fin cfg0.N) (k q : Fin 128) :
    ((cfg0.win 3).blk t).view.read (Elt Ideal) A (ix2 k q) = A (ix2 k q) := by
  obtain ⟨-, -, -, -, -, -, e0, e1, -⟩ := block_places t
  show A (((cfg0.win 3).blk t).view.emb (ix2 k q)) = _
  refine congrArg A (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

theorem read_bself (A : S128.Idx → EReal) (t : Fin cfg0.N) (q : Fin 128) :
    ((cfg0.win 4).blk t).view.read (Elt Ideal) A (ix1 q) = A (ix1 q) := by
  obtain ⟨-, -, -, -, -, -, -, -, e0, -⟩ := block_places t
  show A (((cfg0.win 4).blk t).view.emb (ix1 q)) = _
  refine congrArg A (funext fun a => Fin.ext ?_)
  match a with
  | ⟨0, _⟩ => show win0_4.index t (0 : Fin 1) * 128 + 1 * q.val = q.val; rw [e0]; omega

theorem read_wneigh (A : S128x128.Idx → EReal) (t : Fin cfg0.N) (k q : Fin 128) :
    ((cfg0.win 5).blk t).view.read (Elt Ideal) A (ix2 k q) = A (ix2 k q) := by
  obtain ⟨-, -, -, -, -, -, -, -, -, e0, e1, -⟩ := block_places t
  show A (((cfg0.win 5).blk t).view.emb (ix2 k q)) = _
  refine congrArg A (funext fun a => Fin.ext ?_)
  match a with
  | ⟨0, _⟩ => show win0_5.index t (0 : Fin 2) * 128 + 1 * k.val = k.val; rw [e0]; omega
  | ⟨1, _⟩ => show win0_5.index t (1 : Fin 2) * 128 + 1 * q.val = q.val; rw [e1]; omega

theorem read_bias (A : S128.Idx → EReal) (t : Fin cfg0.N) (q : Fin 128) :
    ((cfg0.win 6).blk t).view.read (Elt Ideal) A (ix1 q) = A (ix1 q) := by
  obtain ⟨-, -, -, -, -, -, -, -, -, -, -, e0, -⟩ := block_places t
  show A (((cfg0.win 6).blk t).view.emb (ix1 q)) = _
  refine congrArg A (funext fun a => Fin.ext ?_)
  match a with
  | ⟨0, _⟩ => show win0_6.index t (0 : Fin 1) * 128 + 1 * q.val = q.val; rw [e0]; omega

/-- Where entry `(p, q)` of the output's block at point `t` sits in the array. -/
theorem out_place (t : Fin cfg0.N) (p : Fin 5000) (q : Fin 128) :
    ((cfg0.win 7).blk t).view.emb (ix2 p q) = (ix2 (rowOf t p) q : S50000x128.Idx) := by
  obtain ⟨-, -, -, -, -, -, -, -, -, -, -, -, e0, e1⟩ := block_places t
  refine funext fun a => Fin.ext ?_
  match a with
  | ⟨0, _⟩ => show win0_7.index t (0 : Fin 2) * 5000 + 1 * p.val = t.val * 5000 + p.val; rw [e0]; omega
  | ⟨1, _⟩ => show win0_7.index t (1 : Fin 2) * 128 + 1 * q.val = q.val; rw [e1]; omega

/-- What the body stores at `(p, q)` at point `t`, from the blocks of ANY seven arrays, is the scale-first layer of those
    arrays at that entry's place. -/
theorem stored_entry (A0 A1 : S50000x128.Idx → EReal) (A2 : S50000x1.Idx → EReal) (A3 : S128x128.Idx → EReal)
    (A4 : S128.Idx → EReal) (A5 : S128x128.Idx → EReal) (A6 : S128.Idx → EReal) (t : Fin cfg0.N) (p : Fin 5000) (q : Fin 128) :
    k0_pay1 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 5).blk t).view.read (Elt Ideal) A5) (((cfg0.win 4).blk t).view.read (Elt Ideal) A4)
        (((cfg0.win 6).blk t).view.read (Elt Ideal) A6) (ix2 p q)
      = Cert.GraphMean.layerK A0 A1 A2 A3 A4 A5 A6 (((cfg0.win 7).blk t).view.emb (ix2 p q)) := by
  rw [out_place]
  refine (Body.pay_apply _ _ _ _ _ _ _ p q).trans ?_
  exact Cert.GraphMean.layerKAt_block A0 A1 A2 A3 A4 A5 A6 _ _ _ _ _ _ _ p (rowOf t p) q
    (fun k => read_feat A0 t p k) (fun k => read_sums A1 t p k) (read_scale A2 t p)
    (fun k => read_wself A3 t k q) (read_bself A4 t q) (fun k => read_wneigh A5 t k q) (read_bias A6 t q)

/-! ## The result array -/

variable (m : (ℓ : Loc nD τ sig) → Buf (Elt Ideal) ℓ) (ρ : Dev nD → PrngReg)

/-- THE RESULT ARRAY as one function of the window arrays as the region finds them: the scale-first layer. -/
def whole (c : Dev nD) : S50000x128.Idx → EReal :=
  Cert.GraphMean.layerK (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))
    (V m c (Pipeline.arrRef spec0 6))

/-- WHAT POINT `t` WRITES BACK is block `t` of `whole`. -/
theorem flushed_eq (c : Dev nD) (t : Fin cfg0.N) :
    (dats m 0 c).flushed 7 t = ((cfg0.win 7).blk t).view.read (Elt Ideal) (whole m c) := by
  rw [Value.flushed7]
  unfold out0_7
  rw [View.canon_unit_zero zero_offsets2]
  simp only [View.ld_unit_zero (S := S5000x128) zero_offsets2, View.ld_unit_zero (S := S5000x1) zero_offsets2,
    View.ld_unit_zero (S := S128x128) zero_offsets2, View.ld_unit_zero (S := S128) zero_offsets1]
  funext y
  obtain ⟨p, q, rfl⟩ : ∃ (p : Fin 5000) (q : Fin 128), y = ix2 p q := ⟨y 0, y 1, eq_ix2 y⟩
  exact stored_entry (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))
    (V m c (Pipeline.arrRef spec0 6)) t p q

/-- An index of the array is in point `t`'s block iff each coordinate is in the block's range on its axis. -/
theorem mem_blk (t : Fin cfg0.N) (i : S50000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v25).slice (win0_7.rect t)).set ↔ _
  rw [View.set_slice_whole, Rect.mem_set_unit]
  exact Iff.rfl

/-- The ten blocks cover the array: row `r` is in the block of point `r / 5000`. -/
theorem cover (i : S50000x128.Idx) :
    ∃ t : Fin cfg0.N, (cfg0.win 7).flush t = true ∧ i ∈ ((cfg0.win 7).blk t).view.set := by
  have h0 : (i 0).val < 50000 := (i 0).isLt
  have h1 : (i 1).val < 128 := (i 1).isLt
  obtain ⟨t, ht⟩ : ∃ t : Fin cfg0.N, t.val = (i 0).val / 5000 :=
    ⟨⟨(i 0).val / 5000, by show _ < grid0.N; rw [N_0]; omega⟩, rfl⟩
  obtain ⟨-, -, -, -, -, -, -, -, -, -, -, -, e0, e1⟩ := block_places t
  refine ⟨t, flush0_7 t, ?_⟩
  rw [mem_blk]
  intro a
  match a with
  | ⟨0, _⟩ =>
    show win0_7.index t (0 : Fin 2) * 5000 ≤ (i 0).val ∧ (i 0).val < win0_7.index t (0 : Fin 2) * 5000 + 5000
    rw [e0, ht]; omega
  | ⟨1, _⟩ =>
    show win0_7.index t (1 : Fin 2) * 128 ≤ (i 1).val ∧ (i 1).val < win0_7.index t (1 : Fin 2) * 128 + 128
    rw [e1]; omega

/-- So the result array ends holding `whole`. -/
theorem final (c : Dev nD) : (dats m 0 c).arrAt 7 cfg0.N = whole m c :=
  (dats m 0 c).arrAt_eq_of_cover 7 (whole m c) (fun t _ => flushed_eq m c t) cover

/-- The kernel's run, read: the result array at `whole`, the arguments unchanged. -/
theorem run : θ_run defs (onTc (τ := τ) (main (F := Ideal))) ⟨m, fun _ => 0, ρ⟩ fun r => ∀ c : Dev nD,
      r.2.mem ((c : Thread nD τ).loc main_v25) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Value.run_blocks m ρ)

end Cert.KernelIdeal.ArrayValue

end
-- ==== Proof.LibCat.lean ====
/-
  A two-piece concatenation as a plain binary function of its pieces, so that a rewriting pass can reach the pieces (they
  sit, in the printed form, inside a list of shape-indexed pairs), with its reading at an index: along the concatenated
  axis, coordinates below the first piece's extent read the first piece, the others read the second piece at the
  coordinate less that extent. And the evaluation of a line of host operations at a buffer as one rewriting pass that
  also folds such concatenations.
-/
import Idealize.ShloMosaic.PureOps.Ideal
import Idealize.ShloMosaic.Lib.Pipeline.Value
import Idealize.ShloMosaic.Lib.ValueIdx
import Idealize.ShloMosaic.Lib.StableHlo.Run

noncomputable section

namespace Cert.Cat

open Idealize.ShloMosaic Idealize.ShloMosaic.ValueIdx

variable {α : Type}

/-- The concatenation of two pieces along axis `a`. -/
def cat2 (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem cat2_fold (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = cat2 t a s₁ s₂ h x₁ x₂ := rfl

/-- Two `[R, A]` and `[R, B]` pieces side by side: a column below `A` reads the first piece. -/
theorem cat2_cols_left {R A B : Nat} (h : Shape.Concatenates [(⟨2, ![R, A]⟩ : Shape), ⟨2, ![R, B]⟩] ⟨2, ![R, A + B]⟩ 1)
    (x₁ : (⟨2, ![R, A]⟩ : Shape).Idx → α) (x₂ : (⟨2, ![R, B]⟩ : Shape).Idx → α) (r : Fin R) (k : Fin A) :
    cat2 ⟨2, ![R, A + B]⟩ 1 ⟨2, ![R, A]⟩ ⟨2, ![R, B]⟩ h x₁ x₂ (ix2 r (Fin.castAdd B k)) = x₁ (ix2 r k) :=
  concatenate_pair_apply_left 1 x₁ x₂ h (ix2 r (Fin.castAdd B k)) rfl (ix2 r k) (fun b => by
    match b with
    | ⟨0, _⟩ => rfl
    | ⟨1, _⟩ => rfl)

/-- … and a column `A + k` reads the second piece at column `k`. -/
theorem cat2_cols_right {R A B : Nat} (h : Shape.Concatenates [(⟨2, ![R, A]⟩ : Shape), ⟨2, ![R, B]⟩] ⟨2, ![R, A + B]⟩ 1)
    (x₁ : (⟨2, ![R, A]⟩ : Shape).Idx → α) (x₂ : (⟨2, ![R, B]⟩ : Shape).Idx → α) (r : Fin R) (k : Fin B) :
    cat2 ⟨2, ![R, A + B]⟩ 1 ⟨2, ![R, A]⟩ ⟨2, ![R, B]⟩ h x₁ x₂ (ix2 r (Fin.natAdd A k)) = x₂ (ix2 r k) :=
  concatenate_pair_apply_right 1 x₁ x₂ h (ix2 r (Fin.natAdd A k)) rfl rfl (ix2 r k) (fun b hb => by
    match b with
    | ⟨0, _⟩ => rfl
    | ⟨1, _⟩ => exact absurd rfl hb) (by show k.val + A = A + k.val; omega)

end Cert.Cat

open Idealize.ShloMosaic.StableHlo in
/-- A line's fold at a buffer: the library's one-pass evaluation, alternated with folding two-piece concatenations into
    binary functions (whose pieces the next pass then reaches), until neither makes progress. -/
macro "eval_line" : tactic =>
  `(tactic| repeat (first | after_results_simp | simp only [Cert.Cat.cat2_fold]))

end
-- ==== Proof.KernelHost.lean ====
/-
  What the kernel's windows hold when the region is entered: the host lines before it, read back.

  The lines gather the source rows of the edges (`msgs`), append a column of ones, add every edge's row of 129 numbers onto
  its destination node's row (`agg`: 128 feature sums and, in the last column, the count), cut the sums (`[N,128]`) and
  the count column (`[N,1]`) out of it, turn the count into the masked reciprocal of the clamped count, and transpose
  the two weight matrices (the rounding to bf16 is the identity on the extended reals).
-/
import proofs.«136518_j75591424410316_2_alg».proof.Proof.Gen.KernelIdeal.Frame
import proofs.«136518_j75591424410316_2_alg».proof.Proof.LibCat
import Idealize.ShloMosaic.Lib.StableHlo.Run

noncomputable section

namespace Cert.KernelIdeal.HostValue

open Cert.KernelIdeal Cert.KernelIdeal.Gen Idealize.ShloMosaic Idealize.ShloMosaic.TcCoe Idealize.SL.Sem
open Idealize.ShloMosaic.StableHlo

/-- The source rows of the edges: row `e` is the feature row of edge `e`'s source node (a negative source number counted
    from the end, as indexing does). -/
def msgs (x0 : FVec Ideal S50000x128 .f32) (x1 : IVec S800000 32) : FVec Ideal S800000x128 .f32 :=
  Host.gather gather_S50000x128_S800000x1_S800000x128_1_0_n_n_0_1_1128 x0
    (broadcastInDim S800000x1 ![0] bcast_S800000_S800000x1_0
      (select (cmpi .slt x1 (broadcastInDim S800000 ![] bcast_S_S800000 (constantI S_ 32 0#32)))
        (addi x1 (broadcastInDim S800000 ![] bcast_S_S800000 (constantI S_ 32 50000#32))) x1))

/-- Every edge's row of messages with a one appended, added onto its destination node's row of a zero array. -/
def agg (x0 : FVec Ideal S50000x128 .f32) (x1 x2 : IVec S800000 32) : FVec Ideal S50000x129 .f32 :=
  Host.scatterAdd (F := Ideal) scatter_S50000x129_S800000x1_S800000x129_1_0_0_1
    (broadcastInDim S50000x129 ![] bcast_S_S50000x129 (constant (F := Ideal) S_ .f32 0x00000000#32))
    (broadcastInDim S800000x1 ![0] bcast_S800000_S800000x1_0 x2)
    (Cert.Cat.cat2 S800000x129 1 S800000x128 S800000x1 concatenates_S800000x128_S800000x1_S800000x129_d1
      (msgs x0 x1) (broadcastInDim S800000x1 ![] bcast_S_S800000x1 (constant (F := Ideal) S_ .f32 0x3F800000#32)))

/-- The count column turned into the masked reciprocal of the clamped count. -/
def scale (cnt : FVec Ideal S50000x1 .f32) : FVec Ideal S50000x1 .f32 :=
  select (cmpf .ogt cnt (broadcastInDim S50000x1 ![] bcast_S_S50000x1 (constant (F := Ideal) S_ .f32 0x00000000#32)))
    (Host.divf (F := Ideal) (broadcastInDim S50000x1 ![] bcast_S_S50000x1 (constant (F := Ideal) S_ .f32 0x3F800000#32))
      (maximumf cnt (broadcastInDim S50000x1 ![] bcast_S_S50000x1 (constant (F := Ideal) S_ .f32 0x3F800000#32))))
    (broadcastInDim S50000x1 ![] bcast_S_S50000x1 (id (constant (F := Ideal) S_ .f32 0x00000000#32)))

variable (m : (ℓ : Loc nD τ sig) → Buf (Elt Ideal) ℓ)

/-- Window 1's array: the 128 feature sums of every node. -/
theorem V_sums (c : Dev nD) :
    (V m c main_v12 : S50000x128.Idx → EReal)
      = extractStridedSlice S50000x128 ![0, 0]
          (agg (m ((c : Thread nD τ).loc main_arg0)) (m ((c : Thread nD τ).loc main_arg1)) (m ((c : Thread nD τ).loc main_arg2)))
          slices_S50000x129_S50000x128_0_0 := by
  dsimp only [V]
  simp only [hostOps0, hostOps0_1, hostOps0_2, List.flatten_cons, List.flatten_nil, List.append_nil, List.cons_append,
    List.nil_append]
  eval_line
  rfl

set_option maxRecDepth 65536 in
/-- Window 2's array: the scale column. -/
theorem V_scale (c : Dev nD) :
    (V m c main_v20 : S50000x1.Idx → EReal)
      = scale (extractStridedSlice S50000x1 ![0, 128]
          (agg (m ((c : Thread nD τ).loc main_arg0)) (m ((c : Thread nD τ).loc main_arg1)) (m ((c : Thread nD τ).loc main_arg2)))
          slices_S50000x129_S50000x1_0_128) := by
  dsimp only [V]
  simp only [hostOps0, hostOps0_1, hostOps0_2, List.flatten_cons, List.flatten_nil, List.append_nil, List.cons_append,
    List.nil_append]
  eval_line
  unfold scale
  refine (cast_eq _ _).trans ?_
  rfl

/-- Window 3's array: the self weights transposed. -/
theorem V_wself (c : Dev nD) :
    (V m c main_v22 : S128x128.Idx → EReal)
      = truncf (F := Ideal) .bf16 (transpose S128x128 [1, 0] (m ((c : Thread nD τ).loc main_arg3)) transposes_S128x128_S128x128_1_0)
          bitsLt_bf16_f32 := by
  dsimp only [V]
  simp only [hostOps0, hostOps0_1, hostOps0_2, List.flatten_cons, List.flatten_nil, List.append_nil, List.cons_append,
    List.nil_append]
  eval_line

/-- Window 5's array: the neighbour weights transposed. -/
theorem V_wneigh (c : Dev nD) :
    (V m c main_v24 : S128x128.Idx → EReal)
      = truncf (F := Ideal) .bf16 (transpose S128x128 [1, 0] (m ((c : Thread nD τ).loc main_arg5)) transposes_S128x128_S128x128_1_0)
          bitsLt_bf16_f32 := by
  dsimp only [V]
  simp only [hostOps0, hostOps0_1, hostOps0_2, List.flatten_cons, List.flatten_nil, List.append_nil, List.cons_append,
    List.nil_append]
  eval_line

end Cert.KernelIdeal.HostValue

end
-- ==== Proof.LibScatterAddRows.lean ====
/-
  An accumulating scatter of whole rows, read at an entry.

  The operand is an `N × C` array, the updates an `E × C` array, and update row `e` is added onto the operand row
  whose number is the `e`-th scatter index (one signed integer per update row); a row whose index is negative or
  `≥ N` is dropped. On the extended reals the result at `(n, c)` is therefore the operand's entry plus the sum, over
  the update rows `e` whose index is `n`, of the update entry `(e, c)`: the columns never mix.

  Everything is general in the three extents and in the width of the index integers.
-/
import Idealize.ShloMosaic.PureOps.Ideal
import Idealize.ShloMosaic.PureOps.Contract
import Idealize.ShloMosaic.Lib.ValueIdx

noncomputable section

namespace LibScatterAddRows

open Idealize.ShloMosaic Idealize.ShloMosaic.ValueIdx

variable {N E C w : Nat}

/-- The dimension numbers of a row scatter: operand `[N, C]`, one index per update row held as `[E, 1]`, updates
    `[E, C]`; the update's axis 1 is the window, the operand's axis 0 is the one the index names. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)

/-- On the row axis the window of update entry `(e, b)` starts at the `e`-th scatter index, read signed. -/
theorem start_row (idx : IVec ⟨2, ![E, 1]⟩ w) (e : Fin E) (b : Fin C) :
    (rowDims N E C wf).start (ix2 e b) idx 0 = (idx (ix2 e (0 : Fin 1))).toInt := by
  unfold ScatterDims.start
  rw [dif_pos (show (0 : Fin 2) ∈ (rowDims N E C wf).scatterDimsToOperandDims from List.mem_singleton.mpr rfl)]
  have hsi : (rowDims N E C wf).siIdx (ix2 e b) ⟨List.idxOf (0 : Fin 2) (rowDims N E C wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- On the column axis it starts at zero. -/
theorem start_col (idx : IVec ⟨2, ![E, 1]⟩ w) (e : Fin E) (b : Fin C) :
    (rowDims N E C wf).start (ix2 e b) idx 1 = 0 := by
  unfold ScatterDims.start
  rw [dif_neg (show ¬ (1 : Fin 2) ∈ (rowDims N E C wf).scatterDimsToOperandDims from by
    intro h; exact absurd (congrArg Fin.val (List.mem_singleton.mp h)) Nat.one_ne_zero)]

/-- The window coordinate on the row axis is zero … -/
theorem window_row (e : Fin E) (b : Fin C) : (rowDims N E C wf).window (ix2 e b) 0 = 0 := by
  unfold ScatterDims.window
  rw [dif_neg (show ¬ (0 : Fin 2) ∈ (rowDims N E C wf).sKept from by
    show ¬ (0 : Fin 2) ∈ ([1] : List (Fin 2))
    intro h; exact absurd (congrArg Fin.val (List.mem_singleton.mp h)) Nat.zero_ne_one)]

/-- … and on the column axis it is the update entry's column. -/
theorem window_col (e : Fin E) (b : Fin C) : (rowDims N E C wf).window (ix2 e b) 1 = b.val := by
  unfold ScatterDims.window
  rw [dif_pos (show (1 : Fin 2) ∈ (rowDims N E C wf).sKept from by
    show (1 : Fin 2) ∈ ([1] : List (Fin 2))
    exact List.mem_singleton.mpr rfl)]
  rfl

/-- WHERE AN UPDATE ENTRY LANDS: entry `(e, b)` lands on operand entry `(n, c)` exactly when the `e`-th index is
    `n` and the columns agree. -/
theorem resultIdx?_iff (idx : IVec ⟨2, ![E, 1]⟩ w) (e : Fin E) (b : Fin C) (n : Fin N) (c : Fin C) :
    (rowDims N E C wf).resultIdx? (ix2 e b) idx = some (ix2 n c)
      ↔ (idx (ix2 e (0 : Fin 1))).toInt = (n.val : Int) ∧ b = c := by
  have hs0 := start_row wf idx e b
  have hs1 := start_col wf idx e b
  have hw0 := window_row wf e b
  have hw1 := window_col wf e b
  unfold ScatterDims.resultIdx?
  constructor
  · intro H
    split at H
    · rename_i h
      have H' := Option.some.inj H
      have h0 : ((rowDims N E C wf).start (ix2 e b) idx 0 + (rowDims N E C wf).window (ix2 e b) 0).toNat = n.val :=
        congrArg (fun f => (f 0).val) H'
      have h1 : ((rowDims N E C wf).start (ix2 e b) idx 1 + (rowDims N E C wf).window (ix2 e b) 1).toNat = c.val :=
        congrArg (fun f => (f 1).val) H'
      have hh0 := (h 0).1
      rw [hs0, hw0] at h0 hh0
      rw [hs1, hw1] at h1
      exact ⟨by omega, Fin.ext (by omega)⟩
    · exact absurd H (by simp)
  · rintro ⟨h0, rfl⟩
    have hn : n.val < N := n.isLt
    have hb : b.val < C := b.isLt
    have h : ∀ a, 0 ≤ (rowDims N E C wf).start (ix2 e b) idx a + (rowDims N E C wf).window (ix2 e b) a
        ∧ (rowDims N E C wf).start (ix2 e b) idx a + (rowDims N E C wf).window (ix2 e b) a
          < (⟨2, ![N, C]⟩ : Shape).size a :=
      Fin.forall_fin_two.2 ⟨by
        rw [hs0, hw0, h0]
        refine ⟨by omega, ?_⟩
        show (n.val : Int) + ((0 : Nat) : Int) < ((N : Nat) : Int)
        omega, by
        rw [hs1, hw1]
        refine ⟨by omega, ?_⟩
        show (0 : Int) + ((b.val : Nat) : Int) < ((C : Nat) : Int)
        omega⟩
    rw [dif_pos h]
    refine congrArg some (funext ?_)
    refine Fin.forall_fin_two.2 ⟨Fin.ext ?_, Fin.ext ?_⟩
    · show ((rowDims N E C wf).start (ix2 e b) idx 0 + (rowDims N E C wf).window (ix2 e b) 0).toNat = n.val
      rw [hs0, hw0, h0]; omega
    · show ((rowDims N E C wf).start (ix2 e b) idx 1 + (rowDims N E C wf).window (ix2 e b) 1).toNat = b.val
      rw [hs1, hw1]; omega

/-- THE ROW SCATTER READ AT AN ENTRY, on the extended reals: the operand's entry plus the update entries of the
    same column in the rows whose index is `n`. -/
theorem hostScatterAdd_rows (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e : Fin E, if (idx (ix2 e (0 : Fin 1))).toInt = (n.val : Int) then upd (ix2 e c) else 0 := by
  unfold Ideal.hostScatterAdd
  refine congrArg (x (ix2 n c) + ·) ?_
  rw [Finset.sum_filter, sum_idx2]
  refine Finset.sum_congr rfl fun e _ => ?_
  simp only [resultIdx?_iff]
  by_cases hq : (idx (ix2 e (0 : Fin 1))).toInt = (n.val : Int)
  · simp only [hq, true_and, Finset.sum_ite_eq', Finset.mem_univ, if_true]
  · simp only [hq, false_and, if_false, Finset.sum_const_zero]

/-- The same for the host operation as a program prints it, read at the exact instance. -/
theorem scatterAdd_rows (x : FVec Ideal ⟨2, ![N, C]⟩ .f32) (idx : IVec ⟨2, ![E, 1]⟩ w)
    (upd : FVec Ideal ⟨2, ![E, C]⟩ .f32) (n : Fin N) (c : Fin C) :
    Host.scatterAdd (F := Ideal) (rowDims N E C wf) x idx upd (ix2 n c)
      = x (ix2 n c) + ∑ e : Fin E, if (idx (ix2 e (0 : Fin 1))).toInt = (n.val : Int) then upd (ix2 e c) else 0 :=
  hostScatterAdd_rows wf x idx upd n c

end LibScatterAddRows

end
-- ==== Proof.KernelRead.lean ====
/-
  The kernel's window arrays read at an entry.

  Row `n` of the accumulated array is the zero row plus the sum of the rows of the edges into `n`; an edge's row is its
  message row with a one appended. So column `k < 128` of row `n` is the sum of the messages' feature `k` over the edges
  into `n`, and column 128 is the number of those edges. The scale column applies the masked reciprocal to that count,
  and a transposed weight matrix read at `(k, j)` is the matrix at `(j, k)`.
-/
import proofs.«136518_j75591424410316_2_alg».proof.Proof.KernelHost
import proofs.«136518_j75591424410316_2_alg».proof.Proof.LibScatterAddRows
import proofs.«136518_j75591424410316_2_alg».proof.Proof.GraphMean
import Idealize.ShloMosaic.Lib.ValueLayout

noncomputable section

namespace Cert.KernelIdeal.HostValue

open Cert.KernelIdeal Cert.KernelIdeal.Gen Idealize.ShloMosaic Idealize.ShloMosaic.ValueIdx

/-- The destination numbers laid out as a column, read at `(e, 0)`. -/
theorem dst_col_apply (x2 : IVec S800000 32) (e : Fin 800000) :
    broadcastInDim S800000x1 ![0] bcast_S800000_S800000x1_0 x2 (ix2 e (0 : Fin 1)) = x2 (ix1 e) :=
  broadcastInDim_apply _ bcast_S800000_S800000x1_0 x2 (ix2 e (0 : Fin 1)) (ix1 e) (fun a => match a with
    | ⟨0, _⟩ => by show e.val = if (800000 : Nat) = 1 then 0 else e.val; rw [if_neg (by decide)])

/-- The sums: entry `(n, k)` of the first 128 columns of the accumulated array. -/
theorem sums_apply (x0 : FVec Ideal S50000x128 .f32) (x1 x2 : IVec S800000 32) (n : Fin 50000) (k : Fin 128) :
    extractStridedSlice S50000x128 ![0, 0] (agg x0 x1 x2) slices_S50000x129_S50000x128_0_0 (ix2 n k)
      = Cert.GraphMean.nsum (msgs x0 x1) x2 n k := by
  refine (slice2_axis1_apply 0 (agg x0 x1 x2) slices_S50000x129_S50000x128_0_0 n k (Fin.castAdd 1 k)
    (Nat.zero_add _).symm).trans ?_
  unfold agg Cert.GraphMean.nsum
  refine (LibScatterAddRows.scatterAdd_rows (N := 50000) (E := 800000) (C := 129)
    scatter_S50000x129_S800000x1_S800000x129_1_0_0_1.wf _ _ _ n (Fin.castAdd 1 k)).trans ?_
  refine congrArg₂ (· + ·) rfl (Finset.sum_congr rfl fun e _ => ?_)
  rw [dst_col_apply]
  exact congrArg (fun v : EReal => if (x2 (ix1 e)).toInt = (n.val : Int) then v else 0)
    (Cert.Cat.cat2_cols_left (R := 800000) (A := 128) (B := 1) concatenates_S800000x128_S800000x1_S800000x129_d1
      (msgs x0 x1) (broadcastInDim S800000x1 ![] bcast_S_S800000x1 (constant (F := Ideal) S_ .f32 0x3F800000#32)) e k)

/-- The count: entry `(n, 0)` of the last column of the accumulated array. -/
theorem count_apply (x0 : FVec Ideal S50000x128 .f32) (x1 x2 : IVec S800000 32) (n : Fin 50000) :
    extractStridedSlice S50000x1 ![0, 128] (agg x0 x1 x2) slices_S50000x129_S50000x1_0_128 (ix2 n (0 : Fin 1))
      = Cert.GraphMean.deg x2 n := by
  refine (slice2_axis1_apply 128 (agg x0 x1 x2) slices_S50000x129_S50000x1_0_128 n (0 : Fin 1) (Fin.natAdd 128 (0 : Fin 1))
    rfl).trans ?_
  unfold agg Cert.GraphMean.deg
  refine (LibScatterAddRows.scatterAdd_rows (N := 50000) (E := 800000) (C := 129)
    scatter_S50000x129_S800000x1_S800000x129_1_0_0_1.wf _ _ _ n (Fin.natAdd 128 (0 : Fin 1))).trans ?_
  refine congrArg₂ (· + ·) rfl (Finset.sum_congr rfl fun e _ => ?_)
  rw [dst_col_apply]
  exact congrArg (fun v : EReal => if (x2 (ix1 e)).toInt = (n.val : Int) then v else 0)
    (Cert.Cat.cat2_cols_right (R := 800000) (A := 128) (B := 1) concatenates_S800000x128_S800000x1_S800000x129_d1
      (msgs x0 x1) (broadcastInDim S800000x1 ![] bcast_S_S800000x1 (constant (F := Ideal) S_ .f32 0x3F800000#32)) e
      (0 : Fin 1))

/-- The scale column at `(n, 0)`: the masked reciprocal of the clamped count at `(n, 0)`. -/
theorem scale_apply (cnt : FVec Ideal S50000x1 .f32) (n : Fin 50000) :
    scale cnt (ix2 n (0 : Fin 1))
      = Scalar.select (Ideal.cmp .ogt (cnt (ix2 n (0 : Fin 1))) (Ideal.ofBits .f32 0x00000000#32))
          (Ideal.div (Ideal.ofBits .f32 0x3F800000#32) (max (cnt (ix2 n (0 : Fin 1))) (Ideal.ofBits .f32 0x3F800000#32)))
          (Ideal.ofBits .f32 0x00000000#32) := rfl

/-- The scale column of the accumulated array's count column is the masked reciprocal of the clamped in-degree. -/
theorem scale_count_apply (x0 : FVec Ideal S50000x128 .f32) (x1 x2 : IVec S800000 32) (n : Fin 50000) :
    scale (extractStridedSlice S50000x1 ![0, 128] (agg x0 x1 x2) slices_S50000x129_S50000x1_0_128) (ix2 n (0 : Fin 1))
      = Cert.GraphMean.invDeg x2 n := by
  rw [scale_apply, count_apply]
  rfl

/-- A weight matrix transposed (and rounded, which is the identity), read at `(k, j)`. -/
theorem weightsT_apply (W : FVec Ideal S128x128 .f32) (k j : Fin 128) :
    truncf (F := Ideal) .bf16 (transpose S128x128 [1, 0] W transposes_S128x128_S128x128_1_0) bitsLt_bf16_f32 (ix2 k j)
      = W (ix2 j k) :=
  transpose_ix2_apply W transposes_S128x128_S128x128_1_0 k j

end Cert.KernelIdeal.HostValue

end
-- ==== Proof.KernelValue.lean ====
/-
  The kernel's result array is the layer of the arguments.

  The result array is the scale-first layer of the window arrays; the sums window holds `nsum`, the scale window the
  masked reciprocal of the clamped in-degree, the weight windows the transposed matrices, and the other windows the
  arguments themselves: so it is the layer, by the law that scaling by the masked reciprocal is the masked quotient.
-/
import proofs.«136518_j75591424410316_2_alg».proof.Proof.KernelArray
import proofs.«136518_j75591424410316_2_alg».proof.Proof.KernelRead

noncomputable section

namespace Cert.KernelIdeal.ArrayValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- THE KERNEL'S RESULT as the layer of the argument arrays (and of the gathered messages). -/
theorem whole_eq (c : Dev nD) :
    whole m c = Cert.GraphMean.layer (m ((c : Thread nD τ).loc main_arg0))
      (HostValue.msgs (m ((c : Thread nD τ).loc main_arg0)) (m ((c : Thread nD τ).loc main_arg1)))
      (m ((c : Thread nD τ).loc main_arg2)) (m ((c : Thread nD τ).loc main_arg3)) (m ((c : Thread nD τ).loc main_arg4))
      (m ((c : Thread nD τ).loc main_arg5)) (m ((c : Thread nD τ).loc main_arg6)) := by
  have e0 : V m c (Pipeline.arrRef spec0 0) = m ((c : Thread nD τ).loc main_arg0) := V_main_arg0 m c
  have e1 : (V m c (Pipeline.arrRef spec0 1) : S50000x128.Idx → EReal) = _ := HostValue.V_sums m c
  have e2 : (V m c (Pipeline.arrRef spec0 2) : S50000x1.Idx → EReal) = _ := HostValue.V_scale m c
  have e3 : (V m c (Pipeline.arrRef spec0 3) : S128x128.Idx → EReal) = _ := HostValue.V_wself m c
  have e4 : V m c (Pipeline.arrRef spec0 4) = m ((c : Thread nD τ).loc main_arg4) := V_main_arg4 m c
  have e5 : (V m c (Pipeline.arrRef spec0 5) : S128x128.Idx → EReal) = _ := HostValue.V_wneigh m c
  have e6 : V m c (Pipeline.arrRef spec0 6) = m ((c : Thread nD τ).loc main_arg6) := V_main_arg6 m c
  unfold whole
  rw [e0, e1, e2, e3, e4, e5, e6]
  exact Cert.GraphMean.layerK_eq_layer _ _ _ _ _ _ _ _ _ _ _
    (fun n k => HostValue.sums_apply _ _ _ n k) (fun n => HostValue.scale_count_apply _ _ _ n)
    (fun k j => HostValue.weightsT_apply _ k j) (fun k j => HostValue.weightsT_apply _ k j)

/-- The kernel's run with its result named as the layer. -/
theorem run_layer : θ_run defs (onTc (τ := τ) (main (F := Ideal))) ⟨m, fun _ => 0, ρ⟩ fun r => ∀ c : Dev nD,
      r.2.mem ((c : Thread nD τ).loc main_v25) = Cert.GraphMean.layer (m ((c : Thread nD τ).loc main_arg0))
        (HostValue.msgs (m ((c : Thread nD τ).loc main_arg0)) (m ((c : Thread nD τ).loc main_arg1)))
        (m ((c : Thread nD τ).loc main_arg2)) (m ((c : Thread nD τ).loc main_arg3)) (m ((c : Thread nD τ).loc main_arg4))
        (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (whole_eq m c), (h c).2⟩) (run m ρ)

end Cert.KernelIdeal.ArrayValue

end
-- ==== Proof.LibScatterAddVec.lean ====
/-
  An accumulating scatter of scalars into a vector, read at an entry.

  The operand is a vector of `N` entries, the updates a vector of `E` scalars, and update `e` is added onto the operand
  entry whose number is the `e`-th scatter index (one signed integer per update, held as an `E × 1` array); an update
  whose index is negative or `≥ N` is dropped. On the extended reals the result at `n` is therefore the operand's entry
  plus the sum of the updates `e` whose index is `n`.

  Everything is general in the two extents and in the width of the index integers.
-/
import Idealize.ShloMosaic.PureOps.Ideal
import Idealize.ShloMosaic.PureOps.Contract
import Idealize.ShloMosaic.Lib.ValueIdx

noncomputable section

namespace LibScatterAddVec

open Idealize.ShloMosaic Idealize.ShloMosaic.ValueIdx

variable {N E w : Nat}

/-- The dimension numbers of a scalar scatter into a vector: operand `[N]`, one index per update held as `[E, 1]`,
    updates `[E]`; no window axis, and the operand's one axis is the one the index names. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1)

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The window of update `e` starts at the `e`-th scatter index, read signed. -/
theorem start_at (idx : IVec ⟨2, ![E, 1]⟩ w) (e : Fin E) :
    (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- There is no window axis: the window coordinate is zero. -/
theorem window_at (e : Fin E) : (vecDims N E wf).window (ix1 e) 0 = 0 := by
  unfold ScatterDims.window
  rw [dif_neg (show ¬ (0 : Fin 1) ∈ (vecDims N E wf).sKept from by
    show ¬ (0 : Fin 1) ∈ ([] : List (Fin 1))
    exact List.not_mem_nil)]

/-- WHERE AN UPDATE LANDS: update `e` lands on operand entry `n` exactly when the `e`-th index is `n`. -/
theorem resultIdx?_iff (idx : IVec ⟨2, ![E, 1]⟩ w) (e : Fin E) (n : Fin N) :
    (vecDims N E wf).resultIdx? (ix1 e) idx = some (ix1 n)
      ↔ (idx (ix2 e (0 : Fin 1))).toInt = (n.val : Int) := by
  have hs0 := start_at wf idx e
  have hw0 := window_at wf e
  unfold ScatterDims.resultIdx?
  constructor
  · intro H
    split at H
    · rename_i h
      have H' := Option.some.inj H
      have h0 : ((vecDims N E wf).start (ix1 e) idx 0 + (vecDims N E wf).window (ix1 e) 0).toNat = n.val :=
        congrArg (fun f => (f 0).val) H'
      have hh0 := (h 0).1
      rw [hs0, hw0] at h0 hh0
      omega
    · exact absurd H (by simp)
  · intro h0
    have hn : n.val < N := n.isLt
    have h : ∀ a, 0 ≤ (vecDims N E wf).start (ix1 e) idx a + (vecDims N E wf).window (ix1 e) a
        ∧ (vecDims N E wf).start (ix1 e) idx a + (vecDims N E wf).window (ix1 e) a
          < (⟨1, ![N]⟩ : Shape).size a :=
      Fin.forall_fin_one.2 ⟨by rw [hs0, hw0, h0]; omega, by
        rw [hs0, hw0, h0]
        show (n.val : Int) + ((0 : Nat) : Int) < ((N : Nat) : Int)
        omega⟩
    rw [dif_pos h]
    refine congrArg some (funext ?_)
    refine Fin.forall_fin_one.2 (Fin.ext ?_)
    show ((vecDims N E wf).start (ix1 e) idx 0 + (vecDims N E wf).window (ix1 e) 0).toNat = n.val
    rw [hs0, hw0, h0]; omega

/-- THE SCALAR SCATTER READ AT AN ENTRY, on the extended reals: the operand's entry plus the updates whose index is
    `n`. -/
theorem hostScatterAdd_vec (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e : Fin E, if (idx (ix2 e (0 : Fin 1))).toInt = (n.val : Int) then upd (ix1 e) else 0 := by
  unfold Ideal.hostScatterAdd
  refine congrArg (x (ix1 n) + ·) ?_
  rw [Finset.sum_filter, sum_idx1]
  refine Finset.sum_congr rfl fun e _ => ?_
  simp only [resultIdx?_iff]

/-- The same for the host operation as a program prints it, read at the exact instance. -/
theorem scatterAdd_vec (x : FVec Ideal ⟨1, ![N]⟩ .f32) (idx : IVec ⟨2, ![E, 1]⟩ w)
    (upd : FVec Ideal ⟨1, ![E]⟩ .f32) (n : Fin N) :
    Host.scatterAdd (F := Ideal) (vecDims N E wf) x idx upd (ix1 n)
      = x (ix1 n) + ∑ e : Fin E, if (idx (ix2 e (0 : Fin 1))).toInt = (n.val : Int) then upd (ix1 e) else 0 :=
  hostScatterAdd_vec wf x idx upd n

end LibScatterAddVec

end
-- ==== Proof.RefValue.lean ====
/-
  The reference's result, read at an entry, is the layer.

  The reference adds every edge's message row onto its destination node's row (the sums), adds a one per edge onto its
  destination node's entry of a vector (the in-degree), divides each sum by the clamped in-degree where the in-degree
  is positive and puts zero elsewhere (the mean), multiplies the mean and the features by the transposed weight
  matrices, and adds the two bias rows: entry `(n, j)` is
      ((∑ₖ feat[n,k]·Ws[j,k] + bs[j]) + ∑ₖ mean[n,k]·Wn[j,k]) + bias[j].
-/
import proofs.«136518_j75591424410316_2_alg».proof.Proof.RefRead
import proofs.«136518_j75591424410316_2_alg».proof.Proof.LibScatterAddRows
import proofs.«136518_j75591424410316_2_alg».proof.Proof.LibScatterAddVec
import proofs.«136518_j75591424410316_2_alg».proof.Proof.GraphMean

noncomputable section

namespace Cert.ReferenceIdeal.RefValue

open Cert.ReferenceIdeal Cert.ReferenceIdeal.Gen Cert.ReferenceIdeal.ReadP Idealize.ShloMosaic Idealize.ShloMosaic.ValueIdx

variable (x0 : (⟨S50000x128, .f32⟩ : BufTy).Contents (Elt Ideal)) (x1 x2 : (⟨S800000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))

/-! ## The index maps at `(n, j)` -/

theorem col_of_vec (e : Fin 800000) : idx_main_v8 (ix2 e (0 : Fin 1)) = ix1 e :=
  funext fun a => Fin.ext (by match a with | ⟨0, _⟩ => rfl)
theorem col_of_vec' (e : Fin 800000) : idx_main_v12 (ix2 e (0 : Fin 1)) = ix1 e :=
  funext fun a => Fin.ext (by match a with | ⟨0, _⟩ => rfl)
theorem node_of_col (n : Fin 50000) : idx_main_v14 (ix2 n (0 : Fin 1)) = ix1 n :=
  funext fun a => Fin.ext (by match a with | ⟨0, _⟩ => rfl)
theorem node_of_col' (n : Fin 50000) : idx_main_v19 (ix2 n (0 : Fin 1)) = ix1 n :=
  funext fun a => Fin.ext (by match a with | ⟨0, _⟩ => rfl)
theorem col_of_entry (n : Fin 50000) (k : Fin 128) : idx_main_v20 (ix2 n k) = ix2 n (0 : Fin 1) :=
  funext fun a => Fin.ext (by match a with | ⟨0, _⟩ => rfl | ⟨1, _⟩ => rfl)
theorem col_of_entry' (n : Fin 50000) (k : Fin 128) : idx_main_call0_v1 (ix2 n k) = ix2 n (0 : Fin 1) :=
  funext fun a => Fin.ext (by match a with | ⟨0, _⟩ => rfl | ⟨1, _⟩ => rfl)
theorem transposed (k j : Fin 128) : idx_main_v23 (ix2 k j) = ix2 j k :=
  funext fun a => Fin.ext (by match a with | ⟨0, _⟩ => rfl | ⟨1, _⟩ => rfl)
theorem transposed' (k j : Fin 128) : idx_main_v25 (ix2 k j) = ix2 j k :=
  funext fun a => Fin.ext (by match a with | ⟨0, _⟩ => rfl | ⟨1, _⟩ => rfl)
theorem left_n (n : Fin 50000) (j k : Fin 128) : lidx_main_v24 (ix2 n j) k = ix2 n k :=
  funext fun a => Fin.ext (by match a with | ⟨0, _⟩ => rfl | ⟨1, _⟩ => rfl)
theorem right_n (n : Fin 50000) (j k : Fin 128) : ridx_main_v24 (ix2 n j) k = ix2 k j :=
  funext fun a => Fin.ext (by match a with | ⟨0, _⟩ => rfl | ⟨1, _⟩ => rfl)
theorem left_s (n : Fin 50000) (j k : Fin 128) : lidx_main_v26 (ix2 n j) k = ix2 n k :=
  funext fun a => Fin.ext (by match a with | ⟨0, _⟩ => rfl | ⟨1, _⟩ => rfl)
theorem right_s (n : Fin 50000) (j k : Fin 128) : ridx_main_v26 (ix2 n j) k = ix2 k j :=
  funext fun a => Fin.ext (by match a with | ⟨0, _⟩ => rfl | ⟨1, _⟩ => rfl)
theorem row_of_entry (n : Fin 50000) (j : Fin 128) : idx_main_v28 (ix2 n j) = ix2 (0 : Fin 1) j :=
  funext fun a => Fin.ext (by match a with | ⟨0, _⟩ => rfl | ⟨1, _⟩ => rfl)
theorem row_of_entry' (n : Fin 50000) (j : Fin 128) : idx_main_v32 (ix2 n j) = ix2 (0 : Fin 1) j :=
  funext fun a => Fin.ext (by match a with | ⟨0, _⟩ => rfl | ⟨1, _⟩ => rfl)
theorem vec_of_row (j : Fin 128) : idx_main_v27 (ix2 (0 : Fin 1) j) = ix1 j :=
  funext fun a => Fin.ext (by match a with | ⟨0, _⟩ => rfl)
theorem vec_of_row' (j : Fin 128) : idx_main_v31 (ix2 (0 : Fin 1) j) = ix1 j :=
  funext fun a => Fin.ext (by match a with | ⟨0, _⟩ => rfl)

/-! ## The two scatters -/

/-- The sums at `(n, k)`. -/
theorem sums_apply (n : Fin 50000) (k : Fin 128) :
    val_main_v9 (F := Ideal) x0 x1 x2 (ix2 n k) = Cert.GraphMean.nsum (val_main_v6 (F := Ideal) x0 x1) x2 n k := by
  unfold val_main_v9 Cert.GraphMean.nsum
  refine (LibScatterAddRows.scatterAdd_rows (N := 50000) (E := 800000) (C := 128)
    scatter_S50000x128_S800000x1_S800000x128_1_0_0_1.wf _ _ _ n k).trans ?_
  refine congrArg₂ (· + ·) rfl (Finset.sum_congr rfl fun e _ => ?_)
  rw [val_main_v8_apply, col_of_vec]

/-- The in-degree at `n`. -/
theorem deg_apply (n : Fin 50000) :
    val_main_v13 (F := Ideal) x2 (ix1 n) = Cert.GraphMean.deg x2 n := by
  unfold val_main_v13 Cert.GraphMean.deg
  refine (LibScatterAddVec.scatterAdd_vec (N := 50000) (E := 800000)
    scatter_S50000_S800000x1_S800000_n_0_0_1.wf _ _ _ n).trans ?_
  refine congrArg₂ (· + ·) rfl (Finset.sum_congr rfl fun e _ => ?_)
  rw [val_main_v12_apply, col_of_vec']
  rfl

/-! ## The mean and the result -/

/-- The masked mean at `(n, k)`. -/
theorem mean_apply (n : Fin 50000) (k : Fin 128) :
    val_main_v22 (F := Ideal) x0 x1 x2 (ix2 n k) = Cert.GraphMean.mean (val_main_v6 (F := Ideal) x0 x1) x2 n k := by
  rw [val_main_v22_apply, val_main_call0_v1_apply, col_of_entry', val_main_v16_apply, val_main_v14_apply, node_of_col,
    deg_apply, val_main_v21_apply, sums_apply, val_main_v20_apply, col_of_entry, val_main_v19_apply, node_of_col',
    val_main_v18_apply, deg_apply]
  rfl

/-- THE REFERENCE'S RESULT is the layer of its arguments and of the gathered messages. -/
theorem result_eq :
    val_main_v33 (F := Ideal) x0 x1 x2 x3 x4 x5 x6
      = Cert.GraphMean.layer x0 (val_main_v6 (F := Ideal) x0 x1) x2 x3 x4 x5 x6 := by
  funext i
  obtain ⟨n, j, rfl⟩ : ∃ (n : Fin 50000) (j : Fin 128), i = ix2 n j := ⟨i 0, i 1, eq_ix2 i⟩
  rw [Cert.GraphMean.layer_apply]
  unfold Cert.GraphMean.layerAt
  rw [val_main_v33_apply, val_main_v30_apply, val_main_v29_apply, val_main_v26_apply, val_main_v24_apply,
    val_main_v28_apply, row_of_entry, val_main_v27_apply, vec_of_row, val_main_v32_apply, row_of_entry',
    val_main_v31_apply, vec_of_row']
  simp only [left_s, right_s, left_n, right_n, val_main_v25_apply, val_main_v23_apply, transposed, transposed', mean_apply,
    Ideal.addf_def]

end Cert.ReferenceIdeal.RefValue

end
-- ==== Proof.lean ====
/-
  A mean-aggregating graph layer computed two ways.

  Both programs gather the source rows of 800000 edges out of a 50000 × 128 feature array and add them onto their
  destination nodes. The reference accumulates the 128 feature sums and, separately, the in-degree; it divides the sums
  by the clamped in-degree where that is positive (zero elsewhere), multiplies the resulting mean and the features by the
  two transposed 128 × 128 weight matrices and adds two bias rows. The kernel's host lines accumulate sums and in-degree
  in ONE pass (a column of ones appended to the messages), turn the in-degree into a masked reciprocal, and the kernel
  body, on blocks of 5000 rows, scales the sums by it before the product.

  On the extended reals the two agree entry by entry: the in-degree is a natural number, so dividing by its clamp is
  multiplying by a real reciprocal, and multiplying by the masked zero gives zero (Proof/GraphMean.lean). The two
  scatters are read at an entry as sums over the edges into a node (Proof/LibScatterAddRows.lean,
  Proof/LibScatterAddVec.lean); the kernel's value is read off its generated frame run block by block
  (Proof/KernelBody.lean, Proof/KernelArray.lean) over the host lines before the region (Proof/KernelHost.lean,
  Proof/KernelRead.lean, Proof/KernelValue.lean); the reference's off its run (Proof/RefValue.lean). The precondition
  is never opened: no step needs a finite feature.
-/
import proofs.«136518_j75591424410316_2_alg».proof.Defs
import proofs.«136518_j75591424410316_2_alg».proof.Proof.Gen.Kernel
import proofs.«136518_j75591424410316_2_alg».proof.Proof.Gen.Kernel.Frame
import proofs.«136518_j75591424410316_2_alg».proof.Proof.Gen.KernelIdeal
import proofs.«136518_j75591424410316_2_alg».proof.Proof.Gen.KernelIdeal.Frame
import proofs.«136518_j75591424410316_2_alg».proof.Proof.Gen.ReferenceIdeal
import proofs.«136518_j75591424410316_2_alg».proof.Proof.Gen.Pre_finite_inputs
import proofs.«136518_j75591424410316_2_alg».proof.Proof.KernelValue
import proofs.«136518_j75591424410316_2_alg».proof.Proof.RefValue
import Idealize.ShloMosaic.Adequacy
import Idealize.ShloMosaic.Init

noncomputable section

namespace Cert.Proof

open Idealize.ShloMosaic Idealize.ShloMosaic.TcCoe Idealize.SL.Sem

/-- Both programs gather the same messages: the source rows, a negative source number counted from the end. -/
theorem msgs_eq (x0 : (⟨Cert.ReferenceIdeal.S50000x128, .f32⟩ : BufTy).Contents (Elt Ideal))
    (x1 : (⟨Cert.ReferenceIdeal.S800000, .i32⟩ : BufTy).Contents (Elt Ideal)) :
    Cert.ReferenceIdeal.ReadP.val_main_v6 (F := Ideal) x0 x1 = Cert.KernelIdeal.HostValue.msgs x0 x1 := rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.ValueP.run (F := Ideal) m ρ)

/-- The two idealized programs end with the same array: the layer of the arguments. -/
theorem algebraic : Cert.algebraic_KernelIdeal_ReferenceIdeal := by
  intro m ρ m' ρ' _ hagree
  refine ⟨_, Cert.KernelIdeal.ArrayValue.run_layer m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.ReadP.val_main_v33_eq (F := Ideal) _ _ _ _ _ _ _).trans ?_
  rw [Cert.ReferenceIdeal.RefValue.result_eq, msgs_eq, (hagree c).1, (hagree c).2.1, (hagree c).2.2.1, (hagree c).2.2.2.1,
    (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
